-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x16x16 : Shape := ⟨4, ![128, 256, 16, 16]⟩
abbrev S16x256 : Shape := ⟨2, ![16, 256]⟩
abbrev S256x16 : Shape := ⟨2, ![256, 16]⟩
abbrev S_ : Shape := ⟨0, ![]⟩

class Facts : Prop where
  bcast_S_S128x256x16x16 : S_.BroadcastsInDim S128x256x16x16 (![] : Fin 0 → Fin S128x256x16x16.rank)
  reducesTo_S128x256x16x16_S_d0_1_2_3 : S128x256x16x16.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S128x256x16x16 .f32) (main_arg1 : FVec F S16x256 .f32) (main_arg2 : FVec F S256x16 .f32) : IVec S_ 1 :=
  let main_v0 : FVec F S128x256x16x16 .f32 := Host.absf main_arg0
  let main_cst : FVec F S_ .f32 := constant S_ .f32 0x7F800000#32
  let main_v1 : FVec F S128x256x16x16 .f32 := broadcastInDim S128x256x16x16 ![] bcast_S_S128x256x16x16 main_cst
  let main_v2 : IVec S128x256x16x16 1 := cmpf .olt main_v0 main_v1
  let main_c : IVec S_ 1 := constantI S_ 1 1#1
  let main_v3 : IVec S_ 1 := (fun x v => Host.reduce IntOp.andi x v reducesTo_S128x256x16x16_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S128x256x16x16 : Shape := ⟨4, ![128, 256, 16, 16]⟩
abbrev S16x256 : Shape := ⟨2, ![16, 256]⟩
abbrev S256x16 : Shape := ⟨2, ![256, 16]⟩
abbrev S128x16x16x256 : Shape := ⟨4, ![128, 16, 16, 256]⟩
abbrev S128x256x256 : Shape := ⟨3, ![128, 256, 256]⟩
abbrev S32x256x256 : Shape := ⟨3, ![32, 256, 256]⟩
abbrev S32x256 : Shape := ⟨2, ![32, 256]⟩
abbrev S32x16 : Shape := ⟨2, ![32, 16]⟩
abbrev S32x1x256 : Shape := ⟨3, ![32, 1, 256]⟩

abbrev nBuf : Space → Nat
  | .hbm => 8
  | .vmem => 6
  | .smem => 0
  | _ => 0

abbrev bufTy : (tb : Table) → Fin (tcTables nBuf tb) → BufTy
  | .hbm, ⟨0, _⟩ => ⟨S128x256x16x16, .f32⟩
  | .hbm, ⟨1, _⟩ => ⟨S16x256, .f32⟩
  | .hbm, ⟨2, _⟩ => ⟨S256x16, .f32⟩
  | .hbm, ⟨3, _⟩ => ⟨S128x16x16x256, .f32⟩
  | .hbm, ⟨4, _⟩ => ⟨S128x256x256, .f32⟩
  | .hbm, ⟨5, _⟩ => ⟨S128x256x256, .f32⟩
  | .hbm, ⟨6, _⟩ => ⟨S128x16x16x256, .f32⟩
  | .hbm, ⟨7, _⟩ => ⟨S128x256x16x16, .f32⟩
  | .local _ .vmem, ⟨0, _⟩ => ⟨S32x256x256, .f32⟩
  | .local _ .vmem, ⟨1, _⟩ => ⟨S32x256x256, .f32⟩
  | .local _ .vmem, ⟨2, _⟩ => ⟨S16x256, .f32⟩
  | .local _ .vmem, ⟨3, _⟩ => ⟨S256x16, .f32⟩
  | .local _ .vmem, ⟨4, _⟩ => ⟨S32x256x256, .f32⟩
  | .local _ .vmem, ⟨5, _⟩ => ⟨S32x256x256, .f32⟩
  | _, _ => ⟨S128x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x256x16x16_S128x16x16x256_0_2_3_1 : S128x256x16x16.Transposes [0, 2, 3, 1] S128x16x16x256
  shapeCasts_S128x16x16x256_S128x256x256 : S128x16x16x256.ShapeCasts S128x256x256
  inb_S32x256x256_S32x256x256_0_0_0 : ∀ a, (![0, 0, 0] : Fin 3 → Nat) a + S32x256x256.size a ≤ S32x256x256.size a
  h_S32x256x256 : 0 < S32x256x256.numel
  shapeCasts_S32x256x256_S32x256x256 : S32x256x256.ShapeCasts S32x256x256
  reduces_S32x256x256_S32x256 : S32x256x256.Reduces [1] S32x256
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  shapeCasts_S32x256_S32x1x256 : S32x256.ShapeCasts S32x1x256
  broadcasts_S32x1x256_S32x256x256 : S32x1x256.Broadcasts S32x256x256
  shapeCasts_S128x256x256_S128x16x16x256 : S128x256x256.ShapeCasts S128x16x16x256
  transposes_S128x16x16x256_S128x256x16x16_0_3_1_2 : S128x16x16x256.Transposes [0, 3, 1, 2] S128x256x16x16
  dot_S32x256_S16x256_S32x16_1_1_0_0_n_n_wf : DotDims.WF S32x256 S16x256 S32x16 [1] [1] [0] [0] [] []
  dot_S32x16_S256x16_S32x256_1_1_0_0_n_n_wf : DotDims.WF S32x16 S256x16 S32x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S128x256x256.size a
  hwx0_0 : ∀ i : grid0.Coords, EltTy.bits .f32 = 32 ∨ (Rect.block (s := S128x256x256) S32x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256x256.size a ≤ S128x256x256.size a
  hwx0_3 : ∀ i : grid0.Coords, EltTy.bits .f32 = 32 ∨ (Rect.block (s := S128x256x256) S32x256x256.size (cc0_transform_3 i) (hinb0_3 i)).WholeWords (EltTy.packing .f32)

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x16_S256x16_S32x256_1_1_0_0_n_n : DotDims S32x16 S256x16 S32x256 where
  lhsContracting := [1]
  rhsContracting := [1]
  lhsNonContracting := [0]
  rhsNonContracting := [0]
  lhsBatch := []
  rhsBatch := []
  wf := dot_S32x16_S256x16_S32x256_1_1_0_0_n_n_wf

abbrev win0_0 : Pipeline.Window sig grid0 :=
  Pipeline.Window.ofSpec (Memref.whole main_v1) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x256x16x16 : Shape := ⟨4, ![128, 256, 16, 16]⟩
abbrev S16x256 : Shape := ⟨2, ![16, 256]⟩
abbrev S256x16 : Shape := ⟨2, ![256, 16]⟩
abbrev S128x256x256 : Shape := ⟨3, ![128, 256, 256]⟩
abbrev S16x256x256 : Shape := ⟨3, ![16, 256, 256]⟩
abbrev S16x16 : Shape := ⟨2, ![16, 16]⟩
abbrev S16x256x1 : Shape := ⟨3, ![16, 256, 1]⟩

abbrev nBuf : Space → Nat
  | .hbm => 8
  | .vmem => 6
  | .smem => 0
  | _ => 0

abbrev bufTy : (tb : Table) → Fin (tcTables nBuf tb) → BufTy
  | .hbm, ⟨0, _⟩ => ⟨S128x256x16x16, .f32⟩
  | .hbm, ⟨1, _⟩ => ⟨S16x256, .f32⟩
  | .hbm, ⟨2, _⟩ => ⟨S256x16, .f32⟩
  | .hbm, ⟨3, _⟩ => ⟨S256x16, .f32⟩
  | .hbm, ⟨4, _⟩ => ⟨S16x256, .f32⟩
  | .hbm, ⟨5, _⟩ => ⟨S128x256x256, .f32⟩
  | .hbm, ⟨6, _⟩ => ⟨S128x256x256, .f32⟩
  | .hbm, ⟨7, _⟩ => ⟨S128x256x16x16, .f32⟩
  | .local _ .vmem, ⟨0, _⟩ => ⟨S16x256x256, .f32⟩
  | .local _ .vmem, ⟨1, _⟩ => ⟨S16x256x256, .f32⟩
  | .local _ .vmem, ⟨2, _⟩ => ⟨S256x16, .f32⟩
  | .local _ .vmem, ⟨3, _⟩ => ⟨S16x256, .f32⟩
  | .local _ .vmem, ⟨4, _⟩ => ⟨S16x256x256, .f32⟩
  | .local _ .vmem, ⟨5, _⟩ => ⟨S16x256x256, .f32⟩
  | _, _ => ⟨S128x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x256_S256x16_1_0 : S16x256.Transposes [1, 0] S256x16
  transposes_S256x16_S16x256_1_0 : S256x16.Transposes [1, 0] S16x256
  shapeCasts_S128x256x16x16_S128x256x256 : S128x256x16x16.ShapeCasts S128x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  reduces_S16x256x256_S16x256 : S16x256x256.Reduces [2] S16x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S16x256_S16x256x1 : S16x256.ShapeCasts S16x256x1
  broadcasts_S16x256x1_S16x256x256 : S16x256x1.Broadcasts S16x256x256
  shapeCasts_S128x256x256_S128x256x16x16 : S128x256x256.ShapeCasts S128x256x16x16
  dot_S16x256_S256x16_S16x16_1_0_0_1_n_n_wf : DotDims.WF S16x256 S256x16 S16x16 [1] [0] [0] [1] [] []
  dot_S16x16_S16x256_S16x256_1_0_0_1_n_n_wf : DotDims.WF S16x16 S16x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S128x256x256.size a
  hwx0_0 : ∀ i : grid0.Coords, EltTy.bits .f32 = 32 ∨ (Rect.block (s := S128x256x256) S16x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x256.size a ≤ S128x256x256.size a
  hwx0_3 : ∀ i : grid0.Coords, EltTy.bits .f32 = 32 ∨ (Rect.block (s := S128x256x256) S16x256x256.size (cc0_transform_3 i) (hinb0_3 i)).WholeWords (EltTy.packing .f32)

variable [Facts₀]

def dot_S16x256_S256x16_S16x16_1_0_0_1_n_n : DotDims S16x256 S256x16 S16x16 where
  lhsContracting := [1]
  rhsContracting := [0]
  lhsNonContracting := [0]
  rhsNonContracting := [1]
  lhsBatch := []
  rhsBatch := []
  wf := dot_S16x256_S256x16_S16x16_1_0_0_1_n_n_wf
def dot_S16x16_S16x256_S16x256_1_0_0_1_n_n : DotDims S16x16 S16x256 S16x256 where
  lhsContracting := [1]
  rhsContracting := [0]
  lhsNonContracting := [0]
  rhsNonContracting := [1]
  lhsBatch := []
  rhsBatch := []
  wf := dot_S16x16_S16x256_S16x256_1_0_0_1_n_n_wf

abbrev win0_0 : Pipeline.Window sig grid0 :=
  Pipeline.Window.ofSpec (Memref.whole main_v2) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.SeSpec.lean ====
/-
  The squeeze-and-excite block as ONE function on the extended reals.

  For a sample's 256 channels of 256 pixels, `X c p`:
    pooled  c = (Σ_p X c p) · 2⁻⁸                      (the spatial mean: the literal is the f32 word of 1/256)
    hidden  j = Σ_c pooled c · W1 j c                    (the first 1×1 convolution, 16 outputs)
    act     j = hidden j · σ(hidden j)                   (SiLU, σ the logistic function)
    gate    c = σ(Σ_j act j · W2 c j)                    (the second 1×1 convolution, then σ)
  and the block's result scales every pixel of channel `c` by `gate c`.
  Both programs compute exactly these sums and products, the pixels of a sample laid out pixel-major in one
  and channel-major in the other, and the weight matrices read directly in one and transposed in the other;
  so the gate is stated over ACCESSOR functions (`X`, `W1`, `W2` by coordinates), and each layout is an instance.
  No law of the extended reals beyond congruence is used: the sums run over the same index sets in both programs.
-/
import Idealize.ShloMosaic.PureOps.Ideal
import Idealize.ShloMosaic.PureOps.Ideal.Laws
import Idealize.ShloMosaic.Lib.ValueIdx

noncomputable section

namespace Cert.SE

open Idealize.ShloMosaic Idealize.ShloMosaic.ValueIdx

/-- The input and the result, (sample, channel, row, column); the two weight matrices; and a sample-major
    array of 256 × 256 entries per sample (pixels × channels or channels × pixels). -/
abbrev SX : Shape := ⟨4, ![128, 256, 16, 16]⟩
abbrev SW1 : Shape := ⟨2, ![16, 256]⟩
abbrev SW2 : Shape := ⟨2, ![256, 16]⟩
abbrev S3 : Shape := ⟨3, ![128, 256, 256]⟩

/-- The mean over a channel's 256 pixels: their sum times the word of 1/256. -/
def pooledOf (X : Fin 256 → Fin 256 → EReal) (c : Fin 256) : EReal :=
  (∑ p : Fin 256, X c p) * Ideal.ofBits .f32 0x3B800000#32

/-- The first convolution's output `j`. -/
def hiddenOf (X : Fin 256 → Fin 256 → EReal) (W1 : Fin 16 → Fin 256 → EReal) (j : Fin 16) : EReal :=
  ∑ c : Fin 256, pooledOf X c * W1 j c

/-- SiLU of it. -/
def actOf (X : Fin 256 → Fin 256 → EReal) (W1 : Fin 16 → Fin 256 → EReal) (j : Fin 16) : EReal :=
  hiddenOf X W1 j * Ideal.logistic (hiddenOf X W1 j)

/-- The gate of channel `c`. -/
def gateOf (X : Fin 256 → Fin 256 → EReal) (W1 : Fin 16 → Fin 256 → EReal) (W2 : Fin 256 → Fin 16 → EReal)
    (c : Fin 256) : EReal :=
  Ideal.logistic (∑ j : Fin 16, actOf X W1 j * W2 c j)

/-- Pixel `p` = 16·row + column of channel `c` of sample `n`. -/
def px (x : SX.Idx → EReal) (n : Fin 128) (c : Fin 256) (p : Fin 256) : EReal :=
  x (ix4 n c ⟨p.val / 16, by have := p.isLt; omega⟩ ⟨p.val % 16, Nat.mod_lt _ (by decide)⟩)

/-- THE RESULT: every entry of the input times its sample's and channel's gate. -/
def result (x : SX.Idx → EReal) (w1 : SW1.Idx → EReal) (w2 : SW2.Idx → EReal) : SX.Idx → EReal := fun i =>
  x i * gateOf (fun c p => px x (i 0) c p) (fun j c => w1 (ix2 j c)) (fun c j => w2 (ix2 c j)) (i 1)

/-- The same over a pixel-major array `A (n, p, c)`, the weights as given. -/
def outNPC (A : S3.Idx → EReal) (w1 : SW1.Idx → EReal) (w2 : SW2.Idx → EReal) : S3.Idx → EReal := fun i =>
  A i * gateOf (fun c p => A (ix3 (i 0) p c)) (fun j c => w1 (ix2 j c)) (fun c j => w2 (ix2 c j)) (i 2)

/-- The same over a channel-major array `A (n, c, p)`, the weights transposed: `w1t (c, j)`, `w2t (j, c)`. -/
def outNCP (A : S3.Idx → EReal) (w1t : SW2.Idx → EReal) (w2t : SW1.Idx → EReal) : S3.Idx → EReal := fun i =>
  A i * gateOf (fun c p => A (ix3 (i 0) c p)) (fun j c => w1t (ix2 c j)) (fun c j => w2t (ix2 j c)) (i 1)

/-- The three read at explicit coordinates. -/
theorem result_ix4 (x : SX.Idx → EReal) (w1 : SW1.Idx → EReal) (w2 : SW2.Idx → EReal) (n : Fin 128) (ch : Fin 256)
    (a b : Fin 16) :
    result x w1 w2 (ix4 n ch a b)
      = x (ix4 n ch a b) * gateOf (fun c p => px x n c p) (fun j c => w1 (ix2 j c)) (fun c j => w2 (ix2 c j)) ch := rfl
theorem outNPC_ix3 (A : S3.Idx → EReal) (w1 : SW1.Idx → EReal) (w2 : SW2.Idx → EReal) (n : Fin 128) (p ch : Fin 256) :
    outNPC A w1 w2 (ix3 n p ch)
      = A (ix3 n p ch) * gateOf (fun c p' => A (ix3 n p' c)) (fun j c => w1 (ix2 j c)) (fun c j => w2 (ix2 c j)) ch := rfl
theorem outNCP_ix3 (A : S3.Idx → EReal) (w1t : SW2.Idx → EReal) (w2t : SW1.Idx → EReal) (n : Fin 128) (ch p : Fin 256) :
    outNCP A w1t w2t (ix3 n ch p)
      = A (ix3 n ch p) * gateOf (fun c p' => A (ix3 n c p')) (fun j c => w1t (ix2 c j)) (fun c j => w2t (ix2 j c)) ch := rfl

/-- The gate depends on its accessors only through their values. -/
theorem gateOf_congr {X X' : Fin 256 → Fin 256 → EReal} {W1 W1' : Fin 16 → Fin 256 → EReal}
    {W2 W2' : Fin 256 → Fin 16 → EReal} (hX : ∀ c p, X c p = X' c p) (h1 : ∀ j c, W1 j c = W1' j c)
    (h2 : ∀ c j, W2 c j = W2' c j) (c : Fin 256) : gateOf X W1 W2 c = gateOf X' W1' W2' c := by
  obtain rfl : X = X' := funext fun c => funext fun p => hX c p
  obtain rfl : W1 = W1' := funext fun j => funext fun c => h1 j c
  obtain rfl : W2 = W2' := funext fun c => funext fun j => h2 c j
  rfl

/-- The pixel at flat position 16·a + b is the entry at row a, column b. -/
theorem px_flat (x : SX.Idx → EReal) (n : Fin 128) (ch : Fin 256) (a b : Fin 16) :
    px x n ch ⟨16 * a.val + b.val, by have := a.isLt; have := b.isLt; omega⟩ = x (ix4 n ch a b) := by
  unfold px
  refine congrArg x (funext fun d => Fin.ext ?_)
  match d with
  | ⟨0, _⟩ => rfl
  | ⟨1, _⟩ => rfl
  | ⟨2, _⟩ => show (16 * a.val + b.val) / 16 = a.val; have := b.isLt; omega
  | ⟨3, _⟩ => show (16 * a.val + b.val) % 16 = b.val; have := b.isLt; omega

end Cert.SE

end
-- ==== Proof.KPay.lean ====
/-
  The pixel-major program's body at an index. A block holds 32 samples, each 256 pixels × 256 channels; the body
  sums each channel over the pixels (axis 1), scales by the word of 1/256, multiplies by the first weight matrix
  contracting the channel axes, applies SiLU, multiplies by the second weight matrix contracting the hidden axes,
  applies the logistic function, and scales the block by that gate row, one row per sample, broadcast over pixels.
  Read at (sample b, pixel p, channel c) that is the block's entry times `gateOf` of sample b's pixels.
-/
import proofs.«181664_g2000706433463736_pallasbulk_515_12_alg».proof.Proof.Gen.KernelIdeal.Skeleton
import proofs.«181664_g2000706433463736_pallasbulk_515_12_alg».proof.Proof.SeSpec
import Idealize.ShloMosaic.Lib.Pipeline.Value
import Idealize.ShloMosaic.Lib.ValueIdx
import Idealize.ShloMosaic.PureOps.Ideal.Laws

noncomputable section

namespace Cert.KernelIdeal.Bridge

open Idealize.ShloMosaic Idealize.ShloMosaic.ValueIdx Cert.KernelIdeal Cert.KernelIdeal.Gen Cert.SE

/-- The sum over the pixel axis of a block, at (sample, channel). -/
theorem pool_apply (v : FVec Ideal S32x256x256 .f32) (h : S32x256x256.Reduces [1] S32x256) (hφ : FKind.Formats .f32)
    (hacc : (0x00000000#32 : BitVec 32) = FKind.add.neutral .f32 hφ) (b : Fin 32) (c : Fin 256) :
    multiReduction .add [1] S32x256 v 0x00000000#32 h hφ hacc (ix2 b c) = ∑ p : Fin 256, v (ix3 b p c) :=
  (Ideal.multiReduction_add_single v _ h hφ hacc (ix2 b c)).trans
    (Finset.sum_congr rfl fun p _ => congrArg v (funext fun a => Fin.ext (by
      match a with
      | ⟨0, _⟩ => rfl
      | ⟨1, _⟩ => rfl
      | ⟨2, _⟩ => rfl)))

/-- The operand indices of the two products keep the output's sample (left) and unit (right) coordinate. -/
theorem d1_lhs0 (i : S32x16.Idx) (q : dot_S32x256_S16x256_S32x16_1_1_0_0_n_n.contr.Idx) :
    (dot_S32x256_S16x256_S32x16_1_1_0_0_n_n.lhsIdx i q 0).val = (i 0).val := by
  unfold DotDims.lhsIdx
  rw [dif_neg (show ¬(0 : Fin S32x256.rank) ∈ dot_S32x256_S16x256_S32x16_1_1_0_0_n_n.lhsBatch by decide),
    dif_pos (show (0 : Fin S32x256.rank) ∈ dot_S32x256_S16x256_S32x16_1_1_0_0_n_n.lhsNonContracting by decide)]
  rfl
theorem d1_rhs0 (i : S32x16.Idx) (q : dot_S32x256_S16x256_S32x16_1_1_0_0_n_n.contr.Idx) :
    (dot_S32x256_S16x256_S32x16_1_1_0_0_n_n.rhsIdx i q 0).val = (i 1).val := by
  unfold DotDims.rhsIdx
  rw [dif_neg (show ¬(0 : Fin S16x256.rank) ∈ dot_S32x256_S16x256_S32x16_1_1_0_0_n_n.rhsBatch by decide),
    dif_pos (show (0 : Fin S16x256.rank) ∈ dot_S32x256_S16x256_S32x16_1_1_0_0_n_n.rhsNonContracting by decide)]
  rfl
theorem d2_lhs0 (i : S32x256.Idx) (q : dot_S32x16_S256x16_S32x256_1_1_0_0_n_n.contr.Idx) :
    (dot_S32x16_S256x16_S32x256_1_1_0_0_n_n.lhsIdx i q 0).val = (i 0).val := by
  unfold DotDims.lhsIdx
  rw [dif_neg (show ¬(0 : Fin S32x16.rank) ∈ dot_S32x16_S256x16_S32x256_1_1_0_0_n_n.lhsBatch by decide),
    dif_pos (show (0 : Fin S32x16.rank) ∈ dot_S32x16_S256x16_S32x256_1_1_0_0_n_n.lhsNonContracting by decide)]
  rfl
theorem d2_rhs0 (i : S32x256.Idx) (q : dot_S32x16_S256x16_S32x256_1_1_0_0_n_n.contr.Idx) :
    (dot_S32x16_S256x16_S32x256_1_1_0_0_n_n.rhsIdx i q 0).val = (i 1).val := by
  unfold DotDims.rhsIdx
  rw [dif_neg (show ¬(0 : Fin S256x16.rank) ∈ dot_S32x16_S256x16_S32x256_1_1_0_0_n_n.rhsBatch by decide),
    dif_pos (show (0 : Fin S256x16.rank) ∈ dot_S32x16_S256x16_S32x256_1_1_0_0_n_n.rhsNonContracting by decide)]
  rfl

/-- The first product: pooled [32, 256] against the weights [16, 256], both contracted on their channel axis. -/
theorem mm1_apply (l : FVec Ideal S32x256 .f32) (r : FVec Ideal S16x256 .f32) (b : Fin 32) (j : Fin 16) :
    matmul dot_S32x256_S16x256_S32x16_1_1_0_0_n_n none l r (constant S32x16 .f32 0x00000000#32) (ix2 b j)
      = ∑ c : Fin 256, l (ix2 b c) * r (ix2 j c) := by
  refine (Ideal.matmul_constant_zero_apply _ _ _ _ _).trans ?_
  rw [← Equiv.sum_comp (contrEquiv1 dot_S32x256_S16x256_S32x16_1_1_0_0_n_n 256 rfl rfl).symm]
  refine Finset.sum_congr rfl fun k _ => ?_
  have hk := contrEquiv1_symm_val dot_S32x256_S16x256_S32x16_1_1_0_0_n_n 256 rfl rfl k
  have el : dot_S32x256_S16x256_S32x16_1_1_0_0_n_n.lhsIdx (ix2 b j)
      ((contrEquiv1 dot_S32x256_S16x256_S32x16_1_1_0_0_n_n 256 rfl rfl).symm k) = ix2 b k :=
    funext fun a => Fin.ext (by
      match a with
      | ⟨0, _⟩ => exact d1_lhs0 _ _
      | ⟨1, _⟩ => exact (dot_S32x256_S16x256_S32x16_1_1_0_0_n_n.lhsIdx_val_of_single rfl _ _).trans hk)
  have er : dot_S32x256_S16x256_S32x16_1_1_0_0_n_n.rhsIdx (ix2 b j)
      ((contrEquiv1 dot_S32x256_S16x256_S32x16_1_1_0_0_n_n 256 rfl rfl).symm k) = ix2 j k :=
    funext fun a => Fin.ext (by
      match a with
      | ⟨0, _⟩ => exact d1_rhs0 _ _
      | ⟨1, _⟩ => exact (dot_S32x256_S16x256_S32x16_1_1_0_0_n_n.rhsIdx_val_of_single rfl _ _).trans hk)
  rw [el, er]

/-- The second product: activations [32, 16] against the weights [256, 16], both contracted on their hidden axis. -/
theorem mm2_apply (l : FVec Ideal S32x16 .f32) (r : FVec Ideal S256x16 .f32) (b : Fin 32) (c : Fin 256) :
    matmul dot_S32x16_S256x16_S32x256_1_1_0_0_n_n none l r (constant S32x256 .f32 0x00000000#32) (ix2 b c)
      = ∑ j : Fin 16, l (ix2 b j) * r (ix2 c j) := by
  refine (Ideal.matmul_constant_zero_apply _ _ _ _ _).trans ?_
  rw [← Equiv.sum_comp (contrEquiv1 dot_S32x16_S256x16_S32x256_1_1_0_0_n_n 16 rfl rfl).symm]
  refine Finset.sum_congr rfl fun k _ => ?_
  have hk := contrEquiv1_symm_val dot_S32x16_S256x16_S32x256_1_1_0_0_n_n 16 rfl rfl k
  have el : dot_S32x16_S256x16_S32x256_1_1_0_0_n_n.lhsIdx (ix2 b c)
      ((contrEquiv1 dot_S32x16_S256x16_S32x256_1_1_0_0_n_n 16 rfl rfl).symm k) = ix2 b k :=
    funext fun a => Fin.ext (by
      match a with
      | ⟨0, _⟩ => exact d2_lhs0 _ _
      | ⟨1, _⟩ => exact (dot_S32x16_S256x16_S32x256_1_1_0_0_n_n.lhsIdx_val_of_single rfl _ _).trans hk)
  have er : dot_S32x16_S256x16_S32x256_1_1_0_0_n_n.rhsIdx (ix2 b c)
      ((contrEquiv1 dot_S32x16_S256x16_S32x256_1_1_0_0_n_n 16 rfl rfl).symm k) = ix2 c k :=
    funext fun a => Fin.ext (by
      match a with
      | ⟨0, _⟩ => exact d2_rhs0 _ _
      | ⟨1, _⟩ => exact (dot_S32x16_S256x16_S32x256_1_1_0_0_n_n.rhsIdx_val_of_single rfl _ _).trans hk)
  rw [el, er]

/-- A gate row [32, 256] given a unit pixel axis and broadcast over the 256 pixels reads, at (b, p, c), the row at (b, c). -/
theorem spread_apply (g : FVec Ideal S32x256 .f32) (h1 : S32x256.ShapeCasts S32x1x256)
    (h2 : S32x1x256.Broadcasts S32x256x256) (b : Fin 32) (p : Fin 256) (c : Fin 256) :
    broadcastTo S32x256x256 (shapeCast S32x1x256 g h1) h2 (ix3 b p c) = g (ix2 b c) := by
  refine (broadcastTo_apply _ h2 (ix3 b p c) (ix3 b (0 : Fin 1) c) fun a => ?_).trans ?_
  · match a with
    | ⟨0, _⟩ => rfl
    | ⟨1, _⟩ => rfl
    | ⟨2, _⟩ => rfl
  · refine shapeCast_apply g h1 _ (ix2 b c) ?_
    rw [Shape.rowMajor_val_three, Shape.rowMajor_val_two]
    show b.val * 256 + c.val = (b.val * 1 + 0) * 256 + c.val
    omega

/-- The first convolution of the pooled block, at (sample, hidden unit). -/
theorem hidden_apply (v0 : FVec Ideal S32x256x256 .f32) (v5 : FVec Ideal S16x256 .f32)
    (h : S32x256x256.Reduces [1] S32x256) (hφ : FKind.Formats .f32)
    (hacc : (0x00000000#32 : BitVec 32) = FKind.add.neutral .f32 hφ) (b : Fin 32) (j : Fin 16) :
    matmul dot_S32x256_S16x256_S32x16_1_1_0_0_n_n none
        (mulf (multiReduction .add [1] S32x256 v0 0x00000000#32 h hφ hacc)
          (broadcast S32x256 (Scalar.ofBits .f32 0x3B800000#32)))
        v5 (constant S32x16 .f32 0x00000000#32) (ix2 b j)
      = hiddenOf (fun c' p' => v0 (ix3 b p' c')) (fun j c' => v5 (ix2 j c')) j := by
  unfold hiddenOf pooledOf
  refine (mm1_apply _ _ b j).trans (Finset.sum_congr rfl fun c' _ => ?_)
  refine congrArg (· * v5 (ix2 j c')) ?_
  refine (mulf_apply _ _ _).trans ?_
  show _ * Ideal.ofBits .f32 0x3B800000#32 = _
  rw [pool_apply]

/-- THE BODY AT AN INDEX: the block's entry times the gate of its sample's channel. -/
theorem pay_apply (v0 : Vec Ideal S32x256x256 .f32) (v5 : Vec Ideal S16x256 .f32) (v9 : Vec Ideal S256x16 .f32)
    (v12 : Vec Ideal S32x256x256 .f32) (b : Fin 32) (p : Fin 256) (c : Fin 256) :
    k0_pay1 (F := Ideal) v0 v5 v9 v12 (ix3 b p c)
      = v12 (ix3 b p c) * gateOf (fun c' p' => v0 (ix3 b p' c')) (fun j c' => v5 (ix2 j c')) (fun c' j => v9 (ix2 c' j)) c := by
  unfold k0_pay1 gateOf actOf
  simp only [shapeCast_self]
  refine (mulf_apply _ _ _).trans (congrArg (v12 (ix3 b p c) * ·) ?_)
  refine (spread_apply _ _ _ b p c).trans ?_
  show Ideal.logistic _ = Ideal.logistic _
  refine congrArg Ideal.logistic ?_
  refine (mm2_apply _ _ b c).trans (Finset.sum_congr rfl fun j _ => congrArg (· * v9 (ix2 c j)) ?_)
  refine (mulf_apply _ _ _).trans ?_
  exact congrArg (fun a => a * Ideal.logistic a) (hidden_apply v0 v5 _ _ _ b j)

end Cert.KernelIdeal.Bridge

end
-- ==== Proof.KArr.lean ====
/-
  From blocks to the array, for the pixel-major program. The grid has 4 points; point t stages samples 32·t … 32·t+31
  of the pixel-major input (all pixels, all channels) and the two weight matrices whole, and writes back the same rows
  of the output. So what point t writes is block t of ONE function of the arrays as the region finds them — every entry
  times its sample's and channel's gate — and the four blocks tile the output array.
-/
import proofs.«181664_g2000706433463736_pallasbulk_515_12_alg».proof.Proof.Gen.KernelIdeal.Frame
import proofs.«181664_g2000706433463736_pallasbulk_515_12_alg».proof.Proof.KPay
import Idealize.ShloMosaic.Lib.Pipeline.Value

set_option maxRecDepth 16384

noncomputable section

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen Cert.SE

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- A block of 32 samples whose entries are the array's at samples 32·T + b, with the weights whole, has the body's
    result equal to the whole-array function at the corresponding index. -/
theorem block_eq (A : S128x256x256.Idx → EReal) (W1 : S16x256.Idx → EReal) (W2 : S256x16.Idx → EReal)
    (x0 : Vec Ideal S32x256x256 .f32) (x1 : Vec Ideal S16x256 .f32) (x2 : Vec Ideal S256x16 .f32) (T : Nat) (hT : T < 4)
    (h0 : ∀ (b : Fin 32) (p : Fin 256) (ch : Fin 256), x0 (ix3 b p ch) = A (ix3 ⟨32 * T + b.val, by omega⟩ p ch))
    (h1 : x1 = W1) (h2 : x2 = W2)
    (y : S32x256x256.Idx) (i : S128x256x256.Idx) (hi0 : (i 0).val = 32 * T + (y 0).val) (hi1 : (i 1).val = (y 1).val)
    (hi2 : (i 2).val = (y 2).val) :
    k0_pay1 (F := Ideal) x0 x1 x2 x0 y = outNPC A W1 W2 i := by
  obtain ⟨b, p, ch, rfl⟩ : ∃ (b : Fin 32) (p : Fin 256) (ch : Fin 256), y = ix3 b p ch := ⟨y 0, y 1, y 2, eq_ix3 y⟩
  have hi : i = ix3 ⟨32 * T + b.val, by omega⟩ p ch := funext fun a => Fin.ext (by
    match a with
    | ⟨0, _⟩ => exact hi0
    | ⟨1, _⟩ => exact hi1
    | ⟨2, _⟩ => exact hi2)
  subst h1 h2
  rw [pay_apply, hi]
  unfold outNPC
  simp only [h0]

/-- The printed index maps over the grid: the input and the output move together along the samples, one block per
    point; the weights stay. -/
theorem idx_facts : ∀ t : Fin cfg0.N, win0_0.index t (0 : Fin 3) = t.val ∧ win0_0.index t (1 : Fin 3) = 0
    ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- WHAT POINT t WRITES BACK is block t of the whole-array function of the arrays as the region finds them. -/
theorem flushed_eq (c : Dev nD) (t : Fin cfg0.N) :
    (dats m 0 c).flushed 3 t = ((cfg0.win 3).blk t).view.read (Elt Ideal)
      (outNPC (V m c main_v1) (V m c main_arg1) (V m c main_arg2)) := by
  show (cfg0.win 3).cut (grid0.coords t) ((dats m 0 c).after 3 t) = _
  rw [after0_3]
  unfold out0_3
  rw [View.canon_unit_zero hz3]
  simp only [View.ld_unit_zero (S := S32x256x256) hz3, View.ld_unit_zero (S := S16x256) hz2,
    View.ld_unit_zero (S := S256x16) hz2]
  obtain ⟨e00, e01, e02, e30, e31, e32, e10, e11, e20, e21⟩ := idx_facts t
  have hN : cfg0.N = 4 := N_0
  funext y
  show k0_pay1 (F := Ideal) (iblk m c 0 t) (iblk m c 1 t) (iblk m c 2 t) (iblk m c 0 t) y
    = outNPC (V m c main_v1) (V m c main_arg1) (V m c main_arg2) (((cfg0.win 3).blk t).view.emb y)
  refine block_eq (V m c main_v1) (V m c main_arg1) (V m c main_arg2) (iblk m c 0 t) (iblk m c 1 t) (iblk m c 2 t)
    t.val (by have := t.isLt; omega) ?_ ?_ ?_ y (((cfg0.win 3).blk t).view.emb y) ?_ ?_ ?_
  · intro b p ch
    show V m c main_v1 (((cfg0.win 0).blk t).view.emb (ix3 b p ch)) = V m c main_v1 _
    refine congrArg (V m c main_v1) (funext fun a => Fin.ext ?_)
    match a with
    | ⟨0, _⟩ => show win0_0.index t (0 : Fin 3) * 32 + 1 * b.val = 32 * t.val + b.val; omega
    | ⟨1, _⟩ => show win0_0.index t (1 : Fin 3) * 256 + 1 * p.val = p.val; omega
    | ⟨2, _⟩ => show win0_0.index t (2 : Fin 3) * 256 + 1 * ch.val = ch.val; omega
  · funext z
    show V m c main_arg1 (((cfg0.win 1).blk t).view.emb z) = V m c main_arg1 z
    refine congrArg (V m c main_arg1) (funext fun a => Fin.ext ?_)
    match a with
    | ⟨0, _⟩ => show win0_1.index t (0 : Fin 2) * 16 + 1 * (z 0).val = (z 0).val; omega
    | ⟨1, _⟩ => show win0_1.index t (1 : Fin 2) * 256 + 1 * (z 1).val = (z 1).val; omega
  · funext z
    show V m c main_arg2 (((cfg0.win 2).blk t).view.emb z) = V m c main_arg2 z
    refine congrArg (V m c main_arg2) (funext fun a => Fin.ext ?_)
    match a with
    | ⟨0, _⟩ => show win0_2.index t (0 : Fin 2) * 256 + 1 * (z 0).val = (z 0).val; omega
    | ⟨1, _⟩ => show win0_2.index t (1 : Fin 2) * 16 + 1 * (z 1).val = (z 1).val; omega
  · show win0_3.index t (0 : Fin 3) * 32 + 1 * (y 0).val = 32 * t.val + (y 0).val; omega
  · show win0_3.index t (1 : Fin 3) * 256 + 1 * (y 1).val = (y 1).val; omega
  · show win0_3.index t (2 : Fin 3) * 256 + 1 * (y 2).val = (y 2).val; omega

/-- An index of the output array is in point t's block iff each coordinate is in the block's range on its axis. -/
theorem mem_blk (t : Fin cfg0.N) (i : S128x256x256.Idx) :
    i ∈ ((cfg0.win 3).blk t).view.set ↔ ∀ a : Fin 3, win0_3.index t a * S32x256x256.size a ≤ (i a).val
      ∧ (i a).val < win0_3.index t a * S32x256x256.size a + S32x256x256.size a := by
  show i ∈ ((View.whole main_v2).slice (win0_3.rect t)).set ↔ _
  rw [View.set_slice_whole, Rect.mem_set_unit]
  exact Iff.rfl

/-- Every index of the output array is in the block of the point its sample's 32-row group names. -/
theorem cover (i : S128x256x256.Idx) :
    ∃ t : Fin cfg0.N, (cfg0.win 3).flush t = true ∧ i ∈ ((cfg0.win 3).blk t).view.set := by
  have hi0 : (i 0).val < 128 := (i 0).isLt
  have hi1 : (i 1).val < 256 := (i 1).isLt
  have hi2 : (i 2).val < 256 := (i 2).isLt
  have hN : cfg0.N = 4 := N_0
  have hlt : (i 0).val / 32 < cfg0.N := by rw [hN]; omega
  refine ⟨⟨(i 0).val / 32, hlt⟩, flush0_3 _, ?_⟩
  rw [mem_blk]
  obtain ⟨e00, e01, e02, e30, e31, e32, e10, e11, e20, e21⟩ := idx_facts ⟨(i 0).val / 32, hlt⟩
  have e30' : win0_3.index ⟨(i 0).val / 32, hlt⟩ (0 : Fin 3) = (i 0).val / 32 := e30
  intro a
  match a with
  | ⟨0, _⟩ =>
    show win0_3.index _ (0 : Fin 3) * 32 ≤ (i 0).val ∧ (i 0).val < win0_3.index _ (0 : Fin 3) * 32 + 32
    omega
  | ⟨1, _⟩ =>
    show win0_3.index _ (1 : Fin 3) * 256 ≤ (i 1).val ∧ (i 1).val < win0_3.index _ (1 : Fin 3) * 256 + 256
    omega
  | ⟨2, _⟩ =>
    show win0_3.index _ (2 : Fin 3) * 256 ≤ (i 2).val ∧ (i 2).val < win0_3.index _ (2 : Fin 3) * 256 + 256
    omega

/-- THE OUTPUT ARRAY after the region: the whole-array function of the arrays as the region finds them. -/
theorem final (c : Dev nD) :
    (dats m 0 c).arrAt 3 cfg0.N = outNPC (V m c main_v1) (V m c main_arg1) (V m c main_arg2) :=
  (dats m 0 c).arrAt_eq_of_cover 3 _ (fun t _ => flushed_eq m c t) cover

end Cert.KernelIdeal.Bridge

end
-- ==== Proof.KHost.lean ====
/-
  The pixel-major program's host operations, and its run read as a value.
  Before the region the input (sample, channel, row, column) is transposed to (sample, row, column, channel) and the
  two pixel axes are flattened: entry (n, p, ch) of the region's input is the input at (n, ch, p / 16, p % 16).
  After the region the output is unflattened and transposed back: entry (n, ch, a, b) of the result is the region's
  output at (n, 16·a + b, ch). Composed with what the region leaves, the result is `SE.result` of the arguments.
-/
import proofs.«181664_g2000706433463736_pallasbulk_515_12_alg».proof.Proof.KArr
import Idealize.ShloMosaic.Lib.Pipeline.Value
import Idealize.ShloMosaic.Lib.StableHlo.Run

set_option maxRecDepth 16384

noncomputable section

namespace Cert.KernelIdeal.Bridge

open Idealize.ShloMosaic Idealize.ShloMosaic.TcCoe Idealize.ShloMosaic.ValueIdx Idealize.SL.Sem
open Idealize.ShloMosaic.Pipeline (Dat)
open Cert.KernelIdeal Cert.KernelIdeal.Gen Cert.SE

variable (m : (ℓ : Loc nD τ sig) → Buf (Elt Ideal) ℓ)

/-- The region's input array is the transposed, flattened input. -/
theorem V_v1 (c : Dev nD) : (V m c main_v1 : S128x256x256.Idx → EReal)
    = shapeCast S128x256x256 (transpose S128x16x16x256 [0, 2, 3, 1] (m ((c : Thread nD τ).loc main_arg0))
        transposes_S128x256x16x16_S128x16x16x256_0_2_3_1) shapeCasts_S128x16x16x256_S128x256x256 := by
  show StableHlo.after hostOps0 (fun b => m (c, b)) (Proc.devRef .tc main_v1) = _
  after_results
  rfl

/-- A transposed and flattened array at (n, p, ch) is the original at (n, ch, p / 16, p % 16). -/
theorem relaid_apply (x : S128x256x16x16.Idx → EReal) (h1 : S128x256x16x16.Transposes [0, 2, 3, 1] S128x16x16x256)
    (h2 : S128x16x16x256.ShapeCasts S128x256x256) (n : Fin 128) (p : Fin 256) (ch : Fin 256) :
    shapeCast S128x256x256 (transpose S128x16x16x256 [0, 2, 3, 1] x h1) h2 (ix3 n p ch) = px x n ch p := by
  have hp := p.isLt
  refine (shapeCast_apply _ h2 (ix3 n p ch)
    (ix4 n ⟨p.val / 16, by omega⟩ ⟨p.val % 16, Nat.mod_lt _ (by decide)⟩ ch) ?_).trans ?_
  · rw [Shape.rowMajor_val_four, Shape.rowMajor_val_three]
    show ((n.val * 16 + p.val / 16) * 16 + p.val % 16) * 256 + ch.val = (n.val * 256 + p.val) * 256 + ch.val
    omega
  · unfold px
    refine transpose_apply _ x h1 _ _ fun bb => ?_
    match bb with
    | ⟨0, _⟩ => rfl
    | ⟨1, _⟩ => rfl
    | ⟨2, _⟩ => rfl
    | ⟨3, _⟩ => rfl

/-- The region's input at (n, p, ch) is pixel p of channel ch of sample n. -/
theorem V_v1_apply (c : Dev nD) (n : Fin 128) (p : Fin 256) (ch : Fin 256) :
    V m c main_v1 (ix3 n p ch) = px (m ((c : Thread nD τ).loc main_arg0)) n ch p :=
  (congrFun (V_v1 m c) (ix3 n p ch)).trans (relaid_apply _ _ _ n p ch)

/-- The result buffer after the run: the region's output array, unflattened and transposed back. -/
theorem tail_eq (c : Dev nD) :
    (Pipeline.afterTail₀ cfgs (dats m) 0 (V0 m) [hostOps1] c main_v4 : S128x256x16x16.Idx → EReal)
      = transpose S128x256x16x16 [0, 3, 1, 2]
          (shapeCast S128x16x16x256 ((dats m 0 c).arrAt 3 cfg0.N) shapeCasts_S128x256x256_S128x16x16x256)
          transposes_S128x16x16x256_S128x256x16x16_0_3_1_2 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 3
  rw [show Pipeline.withArrays (cfgs 0).spec c (V0 m c) (fun w => (dats m 0 c).arrAt w (cfgs 0).N)
    (Proc.tc.devRef main_v2) = (dats m 0 c).arrAt 3 cfg0.N from e]
  rfl

/-- An unflattened and transposed-back array at (n, ch, a, b) is the original at (n, 16·a + b, ch). -/
theorem unlaid_apply (y : S128x256x256.Idx → EReal) (h1 : S128x256x256.ShapeCasts S128x16x16x256)
    (h2 : S128x16x16x256.Transposes [0, 3, 1, 2] S128x256x16x16) (n : Fin 128) (ch : Fin 256) (a b : Fin 16) :
    transpose S128x256x16x16 [0, 3, 1, 2] (shapeCast S128x16x16x256 y h1) h2 (ix4 n ch a b)
      = y (ix3 n ⟨16 * a.val + b.val, by have := a.isLt; have := b.isLt; omega⟩ ch) := by
  refine (transpose_apply _ _ h2 (ix4 n ch a b) (ix4 n a b ch) fun bb => ?_).trans ?_
  · match bb with
    | ⟨0, _⟩ => rfl
    | ⟨1, _⟩ => rfl
    | ⟨2, _⟩ => rfl
    | ⟨3, _⟩ => rfl
  · refine shapeCast_apply y h1 _ _ ?_
    rw [Shape.rowMajor_val_four, Shape.rowMajor_val_three]
    show (n.val * 256 + (16 * a.val + b.val)) * 256 + ch.val = ((n.val * 16 + a.val) * 16 + b.val) * 256 + ch.val
    omega

/-- THE VALUE of the result buffer: the squeeze-and-excite block of the three arguments. -/
theorem value (c : Dev nD) :
    Pipeline.afterTail₀ cfgs (dats m) 0 (V0 m) [hostOps1] c main_v4
      = result (m ((c : Thread nD τ).loc main_arg0)) (m ((c : Thread nD τ).loc main_arg1))
          (m ((c : Thread nD τ).loc main_arg2)) := by
  refine (tail_eq m c).trans ?_
  rw [final]
  funext i
  obtain ⟨n, ch, a, b, rfl⟩ : ∃ (n : Fin 128) (ch : Fin 256) (a b : Fin 16), i = ix4 n ch a b :=
    ⟨i 0, i 1, i 2, i 3, eq_ix4 i⟩
  refine (unlaid_apply _ _ _ n ch a b).trans ?_
  rw [outNPC_ix3, result_ix4, V_v1_apply, px_flat]
  have key : ∀ (e g g' : EReal), g = g' → e * g = e * g' := fun e g g' hg => by rw [hg]
  refine key _ _ _ ?_
  exact gateOf_congr (fun c' p' => V_v1_apply m c n p' c')
    (fun j c' => congrFun (V_main_arg1 m c) (ix2 j c')) (fun c' j => congrFun (V_main_arg2 m c) (ix2 c' j)) ch

/-- THE RUN: every weakly fair execution terminates with the result buffer at `SE.result` of the arguments, and the
    arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (value m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Bridge

end
-- ==== Proof.RPay.lean ====
/-
  The channel-major program's body at an index. A block holds 16 samples, each 256 channels × 256 pixels; the body
  sums each channel over the pixels (axis 2), scales by the word of 1/256, multiplies by the TRANSPOSED first weight
  matrix [256, 16] (contracting its first axis), applies SiLU, multiplies by the TRANSPOSED second weight matrix
  [16, 256], applies the logistic function, and scales the block by that gate, one value per sample and channel,
  broadcast over the pixels. Read at (sample b, channel c, pixel p) that is the block's entry times `gateOf` of
  sample b's pixels.
-/
import proofs.«181664_g2000706433463736_pallasbulk_515_12_alg».proof.Proof.Gen.ReferenceIdeal.Skeleton
import proofs.«181664_g2000706433463736_pallasbulk_515_12_alg».proof.Proof.SeSpec
import Idealize.ShloMosaic.Lib.Pipeline.Value
import Idealize.ShloMosaic.Lib.ValueIdx
import Idealize.ShloMosaic.PureOps.Ideal.Laws

noncomputable section

namespace Cert.ReferenceIdeal.Bridge

open Idealize.ShloMosaic Idealize.ShloMosaic.ValueIdx Cert.ReferenceIdeal Cert.ReferenceIdeal.Gen Cert.SE

/-- The sum over the pixel axis of a block, at (sample, channel). -/
theorem pool_apply (v : FVec Ideal S16x256x256 .f32) (h : S16x256x256.Reduces [2] S16x256) (hφ : FKind.Formats .f32)
    (hacc : (0x00000000#32 : BitVec 32) = FKind.add.neutral .f32 hφ) (b : Fin 16) (c : Fin 256) :
    multiReduction .add [2] S16x256 v 0x00000000#32 h hφ hacc (ix2 b c) = ∑ p : Fin 256, v (ix3 b c p) :=
  (Ideal.multiReduction_add_single v _ h hφ hacc (ix2 b c)).trans
    (Finset.sum_congr rfl fun p _ => congrArg v (funext fun a => Fin.ext (by
      match a with
      | ⟨0, _⟩ => rfl
      | ⟨1, _⟩ => rfl
      | ⟨2, _⟩ => rfl)))

/-- The operand indices of the two products keep the output's sample (left) and column (right) coordinate. -/
theorem d1_lhs0 (i : S16x16.Idx) (q : dot_S16x256_S256x16_S16x16_1_0_0_1_n_n.contr.Idx) :
    (dot_S16x256_S256x16_S16x16_1_0_0_1_n_n.lhsIdx i q 0).val = (i 0).val := by
  unfold DotDims.lhsIdx
  rw [dif_neg (show ¬(0 : Fin S16x256.rank) ∈ dot_S16x256_S256x16_S16x16_1_0_0_1_n_n.lhsBatch by decide),
    dif_pos (show (0 : Fin S16x256.rank) ∈ dot_S16x256_S256x16_S16x16_1_0_0_1_n_n.lhsNonContracting by decide)]
  rfl
theorem d1_rhs1 (i : S16x16.Idx) (q : dot_S16x256_S256x16_S16x16_1_0_0_1_n_n.contr.Idx) :
    (dot_S16x256_S256x16_S16x16_1_0_0_1_n_n.rhsIdx i q 1).val = (i 1).val := by
  unfold DotDims.rhsIdx
  rw [dif_neg (show ¬(1 : Fin S256x16.rank) ∈ dot_S16x256_S256x16_S16x16_1_0_0_1_n_n.rhsBatch by decide),
    dif_pos (show (1 : Fin S256x16.rank) ∈ dot_S16x256_S256x16_S16x16_1_0_0_1_n_n.rhsNonContracting by decide)]
  rfl
theorem d2_lhs0 (i : S16x256.Idx) (q : dot_S16x16_S16x256_S16x256_1_0_0_1_n_n.contr.Idx) :
    (dot_S16x16_S16x256_S16x256_1_0_0_1_n_n.lhsIdx i q 0).val = (i 0).val := by
  unfold DotDims.lhsIdx
  rw [dif_neg (show ¬(0 : Fin S16x16.rank) ∈ dot_S16x16_S16x256_S16x256_1_0_0_1_n_n.lhsBatch by decide),
    dif_pos (show (0 : Fin S16x16.rank) ∈ dot_S16x16_S16x256_S16x256_1_0_0_1_n_n.lhsNonContracting by decide)]
  rfl
theorem d2_rhs1 (i : S16x256.Idx) (q : dot_S16x16_S16x256_S16x256_1_0_0_1_n_n.contr.Idx) :
    (dot_S16x16_S16x256_S16x256_1_0_0_1_n_n.rhsIdx i q 1).val = (i 1).val := by
  unfold DotDims.rhsIdx
  rw [dif_neg (show ¬(1 : Fin S16x256.rank) ∈ dot_S16x16_S16x256_S16x256_1_0_0_1_n_n.rhsBatch by decide),
    dif_pos (show (1 : Fin S16x256.rank) ∈ dot_S16x16_S16x256_S16x256_1_0_0_1_n_n.rhsNonContracting by decide)]
  rfl

/-- The first product: pooled [16, 256] against the transposed weights [256, 16], contracted on the channels. -/
theorem mm1_apply (l : FVec Ideal S16x256 .f32) (r : FVec Ideal S256x16 .f32) (b : Fin 16) (j : Fin 16) :
    matmul dot_S16x256_S256x16_S16x16_1_0_0_1_n_n none l r (constant S16x16 .f32 0x00000000#32) (ix2 b j)
      = ∑ c : Fin 256, l (ix2 b c) * r (ix2 c j) := by
  refine (Ideal.matmul_constant_zero_apply _ _ _ _ _).trans ?_
  rw [← Equiv.sum_comp (contrEquiv1 dot_S16x256_S256x16_S16x16_1_0_0_1_n_n 256 rfl rfl).symm]
  refine Finset.sum_congr rfl fun k _ => ?_
  have hk := contrEquiv1_symm_val dot_S16x256_S256x16_S16x16_1_0_0_1_n_n 256 rfl rfl k
  have el : dot_S16x256_S256x16_S16x16_1_0_0_1_n_n.lhsIdx (ix2 b j)
      ((contrEquiv1 dot_S16x256_S256x16_S16x16_1_0_0_1_n_n 256 rfl rfl).symm k) = ix2 b k :=
    funext fun a => Fin.ext (by
      match a with
      | ⟨0, _⟩ => exact d1_lhs0 _ _
      | ⟨1, _⟩ => exact (dot_S16x256_S256x16_S16x16_1_0_0_1_n_n.lhsIdx_val_of_single rfl _ _).trans hk)
  have er : dot_S16x256_S256x16_S16x16_1_0_0_1_n_n.rhsIdx (ix2 b j)
      ((contrEquiv1 dot_S16x256_S256x16_S16x16_1_0_0_1_n_n 256 rfl rfl).symm k) = ix2 k j :=
    funext fun a => Fin.ext (by
      match a with
      | ⟨0, _⟩ => exact (dot_S16x256_S256x16_S16x16_1_0_0_1_n_n.rhsIdx_val_of_single rfl _ _).trans hk
      | ⟨1, _⟩ => exact d1_rhs1 _ _)
  rw [el, er]

/-- The second product: activations [16, 16] against the transposed weights [16, 256], contracted on the hidden units. -/
theorem mm2_apply (l : FVec Ideal S16x16 .f32) (r : FVec Ideal S16x256 .f32) (b : Fin 16) (c : Fin 256) :
    matmul dot_S16x16_S16x256_S16x256_1_0_0_1_n_n none l r (constant S16x256 .f32 0x00000000#32) (ix2 b c)
      = ∑ j : Fin 16, l (ix2 b j) * r (ix2 j c) := by
  refine (Ideal.matmul_constant_zero_apply _ _ _ _ _).trans ?_
  rw [← Equiv.sum_comp (contrEquiv1 dot_S16x16_S16x256_S16x256_1_0_0_1_n_n 16 rfl rfl).symm]
  refine Finset.sum_congr rfl fun k _ => ?_
  have hk := contrEquiv1_symm_val dot_S16x16_S16x256_S16x256_1_0_0_1_n_n 16 rfl rfl k
  have el : dot_S16x16_S16x256_S16x256_1_0_0_1_n_n.lhsIdx (ix2 b c)
      ((contrEquiv1 dot_S16x16_S16x256_S16x256_1_0_0_1_n_n 16 rfl rfl).symm k) = ix2 b k :=
    funext fun a => Fin.ext (by
      match a with
      | ⟨0, _⟩ => exact d2_lhs0 _ _
      | ⟨1, _⟩ => exact (dot_S16x16_S16x256_S16x256_1_0_0_1_n_n.lhsIdx_val_of_single rfl _ _).trans hk)
  have er : dot_S16x16_S16x256_S16x256_1_0_0_1_n_n.rhsIdx (ix2 b c)
      ((contrEquiv1 dot_S16x16_S16x256_S16x256_1_0_0_1_n_n 16 rfl rfl).symm k) = ix2 k c :=
    funext fun a => Fin.ext (by
      match a with
      | ⟨0, _⟩ => exact (dot_S16x16_S16x256_S16x256_1_0_0_1_n_n.rhsIdx_val_of_single rfl _ _).trans hk
      | ⟨1, _⟩ => exact d2_rhs1 _ _)
  rw [el, er]

/-- A gate [16, 256] given a trailing unit axis and broadcast over the 256 pixels reads, at (b, c, p), the gate at (b, c). -/
theorem spread_apply (g : FVec Ideal S16x256 .f32) (h1 : S16x256.ShapeCasts S16x256x1)
    (h2 : S16x256x1.Broadcasts S16x256x256) (b : Fin 16) (c : Fin 256) (p : Fin 256) :
    broadcastTo S16x256x256 (shapeCast S16x256x1 g h1) h2 (ix3 b c p) = g (ix2 b c) := by
  refine (broadcastTo_apply _ h2 (ix3 b c p) (ix3 b c (0 : Fin 1)) fun a => ?_).trans ?_
  · match a with
    | ⟨0, _⟩ => rfl
    | ⟨1, _⟩ => rfl
    | ⟨2, _⟩ => rfl
  · refine shapeCast_apply g h1 _ (ix2 b c) ?_
    rw [Shape.rowMajor_val_three, Shape.rowMajor_val_two]
    show b.val * 256 + c.val = (b.val * 256 + c.val) * 1 + 0
    omega

/-- The first convolution of the pooled block, at (sample, hidden unit). -/
theorem hidden_apply (v0 : FVec Ideal S16x256x256 .f32) (v5 : FVec Ideal S256x16 .f32)
    (h : S16x256x256.Reduces [2] S16x256) (hφ : FKind.Formats .f32)
    (hacc : (0x00000000#32 : BitVec 32) = FKind.add.neutral .f32 hφ) (b : Fin 16) (j : Fin 16) :
    matmul dot_S16x256_S256x16_S16x16_1_0_0_1_n_n none
        (mulf (multiReduction .add [2] S16x256 v0 0x00000000#32 h hφ hacc)
          (broadcast S16x256 (Scalar.ofBits .f32 0x3B800000#32)))
        v5 (constant S16x16 .f32 0x00000000#32) (ix2 b j)
      = hiddenOf (fun c' p' => v0 (ix3 b c' p')) (fun j c' => v5 (ix2 c' j)) j := by
  unfold hiddenOf pooledOf
  refine (mm1_apply _ _ b j).trans (Finset.sum_congr rfl fun c' _ => ?_)
  refine congrArg (· * v5 (ix2 c' j)) ?_
  refine (mulf_apply _ _ _).trans ?_
  show _ * Ideal.ofBits .f32 0x3B800000#32 = _
  rw [pool_apply]

/-- THE BODY AT AN INDEX: the block's entry times the gate of its sample's channel. -/
theorem pay_apply (v0 : Vec Ideal S16x256x256 .f32) (v5 : Vec Ideal S256x16 .f32) (v10 : Vec Ideal S16x256 .f32)
    (b : Fin 16) (c : Fin 256) (p : Fin 256) :
    k0_pay1 (F := Ideal) v0 v5 v10 (ix3 b c p)
      = v0 (ix3 b c p) * gateOf (fun c' p' => v0 (ix3 b c' p')) (fun j c' => v5 (ix2 c' j)) (fun c' j => v10 (ix2 j c')) c := by
  unfold k0_pay1 gateOf actOf
  simp only [shapeCast_self]
  refine (mulf_apply _ _ _).trans (congrArg (v0 (ix3 b c p) * ·) ?_)
  refine (spread_apply _ _ _ b c p).trans ?_
  show Ideal.logistic _ = Ideal.logistic _
  refine congrArg Ideal.logistic ?_
  refine (mm2_apply _ _ b c).trans (Finset.sum_congr rfl fun j _ => congrArg (· * v10 (ix2 j c)) ?_)
  refine (mulf_apply _ _ _).trans ?_
  exact congrArg (fun a => a * Ideal.logistic a) (hidden_apply v0 v5 _ _ _ b j)

end Cert.ReferenceIdeal.Bridge

end
-- ==== Proof.RArr.lean ====
/-
  From blocks to the array, for the channel-major program. The grid has 8 points; point t stages samples 16·t … 16·t+15
  of the channel-major input (all channels, all pixels) and the two transposed weight matrices whole, and writes back
  the same rows of the output. So what point t writes is block t of ONE function of the arrays as the region finds
  them — every entry times its sample's and channel's gate — and the eight blocks tile the output array.
-/
import proofs.«181664_g2000706433463736_pallasbulk_515_12_alg».proof.Proof.Gen.ReferenceIdeal.Frame
import proofs.«181664_g2000706433463736_pallasbulk_515_12_alg».proof.Proof.RPay
import Idealize.ShloMosaic.Lib.Pipeline.Value

set_option maxRecDepth 16384

noncomputable section

namespace Cert.ReferenceIdeal.Bridge

open Idealize.ShloMosaic Idealize.ShloMosaic.TcCoe Idealize.ShloMosaic.ValueIdx Idealize.SL.Sem
open Idealize.ShloMosaic.Pipeline (Dat)
open Cert.ReferenceIdeal Cert.ReferenceIdeal.Gen Cert.SE

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- A block of 16 samples whose entries are the array's at samples 16·T + b, with the transposed weights whole, has
    the body's result equal to the whole-array function at the corresponding index. -/
theorem block_eq (A : S128x256x256.Idx → EReal) (W1t : S256x16.Idx → EReal) (W2t : S16x256.Idx → EReal)
    (x0 : Vec Ideal S16x256x256 .f32) (x1 : Vec Ideal S256x16 .f32) (x2 : Vec Ideal S16x256 .f32) (T : Nat) (hT : T < 8)
    (h0 : ∀ (b : Fin 16) (ch : Fin 256) (p : Fin 256), x0 (ix3 b ch p) = A (ix3 ⟨16 * T + b.val, by omega⟩ ch p))
    (h1 : x1 = W1t) (h2 : x2 = W2t)
    (y : S16x256x256.Idx) (i : S128x256x256.Idx) (hi0 : (i 0).val = 16 * T + (y 0).val) (hi1 : (i 1).val = (y 1).val)
    (hi2 : (i 2).val = (y 2).val) :
    k0_pay1 (F := Ideal) x0 x1 x2 y = outNCP A W1t W2t i := by
  obtain ⟨b, ch, p, rfl⟩ : ∃ (b : Fin 16) (ch : Fin 256) (p : Fin 256), y = ix3 b ch p := ⟨y 0, y 1, y 2, eq_ix3 y⟩
  have hi : i = ix3 ⟨16 * T + b.val, by omega⟩ ch p := funext fun a => Fin.ext (by
    match a with
    | ⟨0, _⟩ => exact hi0
    | ⟨1, _⟩ => exact hi1
    | ⟨2, _⟩ => exact hi2)
  subst h1 h2
  rw [pay_apply, hi]
  unfold outNCP
  simp only [h0]

/-- The printed index maps over the grid: the input and the output move together along the samples, one block per
    point; the weights stay. -/
theorem idx_facts : ∀ t : Fin cfg0.N, win0_0.index t (0 : Fin 3) = t.val ∧ win0_0.index t (1 : Fin 3) = 0
    ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- WHAT POINT t WRITES BACK is block t of the whole-array function of the arrays as the region finds them. -/
theorem flushed_eq (c : Dev nD) (t : Fin cfg0.N) :
    (dats m 0 c).flushed 3 t = ((cfg0.win 3).blk t).view.read (Elt Ideal)
      (outNCP (V m c main_v2) (V m c main_v0) (V m c main_v1)) := by
  show (cfg0.win 3).cut (grid0.coords t) ((dats m 0 c).after 3 t) = _
  rw [after0_3]
  unfold out0_3
  rw [View.canon_unit_zero hz3]
  simp only [View.ld_unit_zero (S := S16x256x256) hz3, View.ld_unit_zero (S := S16x256) hz2,
    View.ld_unit_zero (S := S256x16) hz2]
  obtain ⟨e00, e01, e02, e30, e31, e32, e10, e11, e20, e21⟩ := idx_facts t
  have hN : cfg0.N = 8 := N_0
  funext y
  show k0_pay1 (F := Ideal) (iblk m c 0 t) (iblk m c 1 t) (iblk m c 2 t) y
    = outNCP (V m c main_v2) (V m c main_v0) (V m c main_v1) (((cfg0.win 3).blk t).view.emb y)
  refine block_eq (V m c main_v2) (V m c main_v0) (V m c main_v1) (iblk m c 0 t) (iblk m c 1 t) (iblk m c 2 t)
    t.val (by have := t.isLt; omega) ?_ ?_ ?_ y (((cfg0.win 3).blk t).view.emb y) ?_ ?_ ?_
  · intro b ch p
    show V m c main_v2 (((cfg0.win 0).blk t).view.emb (ix3 b ch p)) = V m c main_v2 _
    refine congrArg (V m c main_v2) (funext fun a => Fin.ext ?_)
    match a with
    | ⟨0, _⟩ => show win0_0.index t (0 : Fin 3) * 16 + 1 * b.val = 16 * t.val + b.val; omega
    | ⟨1, _⟩ => show win0_0.index t (1 : Fin 3) * 256 + 1 * ch.val = ch.val; omega
    | ⟨2, _⟩ => show win0_0.index t (2 : Fin 3) * 256 + 1 * p.val = p.val; omega
  · funext z
    show V m c main_v0 (((cfg0.win 1).blk t).view.emb z) = V m c main_v0 z
    refine congrArg (V m c main_v0) (funext fun a => Fin.ext ?_)
    match a with
    | ⟨0, _⟩ => show win0_1.index t (0 : Fin 2) * 256 + 1 * (z 0).val = (z 0).val; omega
    | ⟨1, _⟩ => show win0_1.index t (1 : Fin 2) * 16 + 1 * (z 1).val = (z 1).val; omega
  · funext z
    show V m c main_v1 (((cfg0.win 2).blk t).view.emb z) = V m c main_v1 z
    refine congrArg (V m c main_v1) (funext fun a => Fin.ext ?_)
    match a with
    | ⟨0, _⟩ => show win0_2.index t (0 : Fin 2) * 16 + 1 * (z 0).val = (z 0).val; omega
    | ⟨1, _⟩ => show win0_2.index t (1 : Fin 2) * 256 + 1 * (z 1).val = (z 1).val; omega
  · show win0_3.index t (0 : Fin 3) * 16 + 1 * (y 0).val = 16 * t.val + (y 0).val; omega
  · show win0_3.index t (1 : Fin 3) * 256 + 1 * (y 1).val = (y 1).val; omega
  · show win0_3.index t (2 : Fin 3) * 256 + 1 * (y 2).val = (y 2).val; omega

/-- An index of the output array is in point t's block iff each coordinate is in the block's range on its axis. -/
theorem mem_blk (t : Fin cfg0.N) (i : S128x256x256.Idx) :
    i ∈ ((cfg0.win 3).blk t).view.set ↔ ∀ a : Fin 3, win0_3.index t a * S16x256x256.size a ≤ (i a).val
      ∧ (i a).val < win0_3.index t a * S16x256x256.size a + S16x256x256.size a := by
  show i ∈ ((View.whole main_v3).slice (win0_3.rect t)).set ↔ _
  rw [View.set_slice_whole, Rect.mem_set_unit]
  exact Iff.rfl

/-- Every index of the output array is in the block of the point its sample's 16-row group names. -/
theorem cover (i : S128x256x256.Idx) :
    ∃ t : Fin cfg0.N, (cfg0.win 3).flush t = true ∧ i ∈ ((cfg0.win 3).blk t).view.set := by
  have hi0 : (i 0).val < 128 := (i 0).isLt
  have hi1 : (i 1).val < 256 := (i 1).isLt
  have hi2 : (i 2).val < 256 := (i 2).isLt
  have hN : cfg0.N = 8 := N_0
  have hlt : (i 0).val / 16 < cfg0.N := by rw [hN]; omega
  refine ⟨⟨(i 0).val / 16, hlt⟩, flush0_3 _, ?_⟩
  rw [mem_blk]
  obtain ⟨e00, e01, e02, e30, e31, e32, e10, e11, e20, e21⟩ := idx_facts ⟨(i 0).val / 16, hlt⟩
  have e30' : win0_3.index ⟨(i 0).val / 16, hlt⟩ (0 : Fin 3) = (i 0).val / 16 := e30
  intro a
  match a with
  | ⟨0, _⟩ =>
    show win0_3.index _ (0 : Fin 3) * 16 ≤ (i 0).val ∧ (i 0).val < win0_3.index _ (0 : Fin 3) * 16 + 16
    omega
  | ⟨1, _⟩ =>
    show win0_3.index _ (1 : Fin 3) * 256 ≤ (i 1).val ∧ (i 1).val < win0_3.index _ (1 : Fin 3) * 256 + 256
    omega
  | ⟨2, _⟩ =>
    show win0_3.index _ (2 : Fin 3) * 256 ≤ (i 2).val ∧ (i 2).val < win0_3.index _ (2 : Fin 3) * 256 + 256
    omega

/-- THE OUTPUT ARRAY after the region: the whole-array function of the arrays as the region finds them. -/
theorem final (c : Dev nD) :
    (dats m 0 c).arrAt 3 cfg0.N = outNCP (V m c main_v2) (V m c main_v0) (V m c main_v1) :=
  (dats m 0 c).arrAt_eq_of_cover 3 _ (fun t _ => flushed_eq m c t) cover

end Cert.ReferenceIdeal.Bridge

end
-- ==== Proof.RHost.lean ====
/-
  The channel-major program's host operations, and its run read as a value.
  Before the region the two weight matrices are transposed and the input's two pixel axes are flattened: entry
  (n, ch, p) of the region's input is the input at (n, ch, p / 16, p % 16). After the region the output is unflattened:
  entry (n, ch, a, b) of the result is the region's output at (n, ch, 16·a + b). Composed with what the region leaves,
  the result is `SE.result` of the arguments.
-/
import proofs.«181664_g2000706433463736_pallasbulk_515_12_alg».proof.Proof.RArr
import Idealize.ShloMosaic.Lib.Pipeline.Value
import Idealize.ShloMosaic.Lib.ValueLayout
import Idealize.ShloMosaic.Lib.StableHlo.Run

set_option maxRecDepth 16384

noncomputable section

namespace Cert.ReferenceIdeal.Bridge

open Idealize.ShloMosaic Idealize.ShloMosaic.TcCoe Idealize.ShloMosaic.ValueIdx Idealize.SL.Sem
open Idealize.ShloMosaic.Pipeline (Dat)
open Cert.ReferenceIdeal Cert.ReferenceIdeal.Gen Cert.SE

variable (m : (ℓ : Loc nD τ sig) → Buf (Elt Ideal) ℓ)

/-- The region's three input arrays: the transposed weights and the flattened input. -/
theorem V_v0 (c : Dev nD) : (V m c main_v0 : S256x16.Idx → EReal)
    = transpose S256x16 [1, 0] (m ((c : Thread nD τ).loc main_arg1)) transposes_S16x256_S256x16_1_0 := by
  show StableHlo.after hostOps0 (fun b => m (c, b)) (Proc.devRef .tc main_v0) = _
  after_results
theorem V_v1 (c : Dev nD) : (V m c main_v1 : S16x256.Idx → EReal)
    = transpose S16x256 [1, 0] (m ((c : Thread nD τ).loc main_arg2)) transposes_S256x16_S16x256_1_0 := by
  show StableHlo.after hostOps0 (fun b => m (c, b)) (Proc.devRef .tc main_v1) = _
  after_results
theorem V_v2 (c : Dev nD) : (V m c main_v2 : S128x256x256.Idx → EReal)
    = shapeCast S128x256x256 (m ((c : Thread nD τ).loc main_arg0)) shapeCasts_S128x256x16x16_S128x256x256 := by
  show StableHlo.after hostOps0 (fun b => m (c, b)) (Proc.devRef .tc main_v2) = _
  after_results
  rfl

/-- The transposed first weight matrix at (channel, unit) is the matrix at (unit, channel); -/
theorem V_v0_apply (c : Dev nD) (ch : Fin 256) (j : Fin 16) :
    V m c main_v0 (ix2 ch j) = m ((c : Thread nD τ).loc main_arg1) (ix2 j ch) :=
  (congrFun (V_v0 m c) (ix2 ch j)).trans (transpose_ix2_apply _ _ ch j)
/-- the transposed second at (unit, channel) is the matrix at (channel, unit). -/
theorem V_v1_apply (c : Dev nD) (j : Fin 16) (ch : Fin 256) :
    V m c main_v1 (ix2 j ch) = m ((c : Thread nD τ).loc main_arg2) (ix2 ch j) :=
  (congrFun (V_v1 m c) (ix2 j ch)).trans (transpose_ix2_apply _ _ j ch)

/-- A flattened array at (n, ch, p) is the original at (n, ch, p / 16, p % 16). -/
theorem flat_apply (x : S128x256x16x16.Idx → EReal) (h : S128x256x16x16.ShapeCasts S128x256x256)
    (n : Fin 128) (ch : Fin 256) (p : Fin 256) :
    shapeCast S128x256x256 x h (ix3 n ch p) = px x n ch p := by
  have hp := p.isLt
  unfold px
  refine shapeCast_apply x h (ix3 n ch p) _ ?_
  rw [Shape.rowMajor_val_four, Shape.rowMajor_val_three]
  show ((n.val * 256 + ch.val) * 16 + p.val / 16) * 16 + p.val % 16 = (n.val * 256 + ch.val) * 256 + p.val
  omega

/-- The region's input at (n, ch, p) is pixel p of channel ch of sample n. -/
theorem V_v2_apply (c : Dev nD) (n : Fin 128) (ch : Fin 256) (p : Fin 256) :
    V m c main_v2 (ix3 n ch p) = px (m ((c : Thread nD τ).loc main_arg0)) n ch p :=
  (congrFun (V_v2 m c) (ix3 n ch p)).trans (flat_apply _ _ n ch p)

/-- The result buffer after the run: the region's output array, unflattened. -/
theorem tail_eq (c : Dev nD) :
    (Pipeline.afterTail₀ cfgs (dats m) 0 (V0 m) [hostOps1] c main_v4 : S128x256x16x16.Idx → EReal)
      = shapeCast S128x256x16x16 ((dats m 0 c).arrAt 3 cfg0.N) shapeCasts_S128x256x256_S128x256x16x16 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 3
  rw [show Pipeline.withArrays (cfgs 0).spec c (V0 m c) (fun w => (dats m 0 c).arrAt w (cfgs 0).N)
    (Proc.tc.devRef main_v3) = (dats m 0 c).arrAt 3 cfg0.N from e]
  rfl

/-- An unflattened array at (n, ch, a, b) is the original at (n, ch, 16·a + b). -/
theorem unflat_apply (y : S128x256x256.Idx → EReal) (h : S128x256x256.ShapeCasts S128x256x16x16)
    (n : Fin 128) (ch : Fin 256) (a b : Fin 16) :
    shapeCast S128x256x16x16 y h (ix4 n ch a b)
      = y (ix3 n ch ⟨16 * a.val + b.val, by have := a.isLt; have := b.isLt; omega⟩) := by
  refine shapeCast_apply y h _ _ ?_
  rw [Shape.rowMajor_val_four, Shape.rowMajor_val_three]
  show (n.val * 256 + ch.val) * 256 + (16 * a.val + b.val) = ((n.val * 256 + ch.val) * 16 + a.val) * 16 + b.val
  omega

/-- THE VALUE of the result buffer: the squeeze-and-excite block of the three arguments. -/
theorem value (c : Dev nD) :
    Pipeline.afterTail₀ cfgs (dats m) 0 (V0 m) [hostOps1] c main_v4
      = result (m ((c : Thread nD τ).loc main_arg0)) (m ((c : Thread nD τ).loc main_arg1))
          (m ((c : Thread nD τ).loc main_arg2)) := by
  refine (tail_eq m c).trans ?_
  rw [final]
  funext i
  obtain ⟨n, ch, a, b, rfl⟩ : ∃ (n : Fin 128) (ch : Fin 256) (a b : Fin 16), i = ix4 n ch a b :=
    ⟨i 0, i 1, i 2, i 3, eq_ix4 i⟩
  refine (unflat_apply _ _ n ch a b).trans ?_
  rw [outNCP_ix3, result_ix4, V_v2_apply, px_flat]
  have key : ∀ (e g g' : EReal), g = g' → e * g = e * g' := fun e g g' hg => by rw [hg]
  refine key _ _ _ ?_
  exact gateOf_congr (fun c' p' => V_v2_apply m c n c' p')
    (fun j c' => V_v0_apply m c c' j) (fun c' j => V_v1_apply m c j c') ch

/-- THE RUN: every weakly fair execution terminates with the result buffer at `SE.result` of the arguments, and the
    arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.ReferenceIdeal.Bridge

end
-- ==== Proof.lean ====
/-
  The squeeze-and-excite block, two layouts, one function.

  Both programs take an input x (sample, channel, row, column) of 128 × 256 × 16 × 16 entries and two weight matrices
  w1 (16 × 256) and w2 (256 × 16), and return x scaled, channel by channel, by a gate:
      pooled c = (Σ over the 256 pixels of channel c) · 2⁻⁸,   hidden j = Σ_c pooled c · w1 j c,
      act j = hidden j · σ(hidden j),                            gate c = σ(Σ_j act j · w2 c j),
  σ the logistic function (`Cert.SE.result`, Proof/SeSpec.lean).
  The first program lays a sample out pixels × channels, works on 4 blocks of 32 samples and contracts the weight
  matrices on their second axes; the second lays it out channels × pixels, works on 8 blocks of 16 samples and
  multiplies by the transposed matrices. On the extended reals both compute the SAME sums over the same index sets
  and the same products, factor by factor, with the same two literals (the zero the sums start from and the word of
  1/256); so the two results are equal by congruence alone, with no appeal to the inputs being finite, and no law of
  the extended reals beyond the equality of equal terms.
  Per program: the body read at an index (KPay, RPay), the blocks assembled into the region's output array
  (KArr, RArr), the re-layouts before and after the region read at an index and the run re-stated with the result
  buffer at `Cert.SE.result` of the arguments (KHost, RHost). The three frames are the generated ones; the ideal pass
  rewrote nothing, so the preservation conjunct is `True`.
-/
import proofs.«181664_g2000706433463736_pallasbulk_515_12_alg».proof.Defs
import proofs.«181664_g2000706433463736_pallasbulk_515_12_alg».proof.Proof.Gen.Kernel
import proofs.«181664_g2000706433463736_pallasbulk_515_12_alg».proof.Proof.Gen.Kernel.Frame
import proofs.«181664_g2000706433463736_pallasbulk_515_12_alg».proof.Proof.Gen.KernelIdeal
import proofs.«181664_g2000706433463736_pallasbulk_515_12_alg».proof.Proof.Gen.KernelIdeal.Frame
import proofs.«181664_g2000706433463736_pallasbulk_515_12_alg».proof.Proof.Gen.ReferenceIdeal
import proofs.«181664_g2000706433463736_pallasbulk_515_12_alg».proof.Proof.Gen.ReferenceIdeal.Frame
import proofs.«181664_g2000706433463736_pallasbulk_515_12_alg».proof.Proof.Gen.Pre_finite_inputs
import proofs.«181664_g2000706433463736_pallasbulk_515_12_alg».proof.Proof.KHost
import proofs.«181664_g2000706433463736_pallasbulk_515_12_alg».proof.Proof.RHost
import Idealize.ShloMosaic.Adequacy
import Idealize.ShloMosaic.Init

noncomputable section

namespace Cert.Proof

open Idealize.ShloMosaic Idealize.SL.Sem

/-- Each program terminates without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- From memories that agree on the three arguments both programs end with their result buffer at the
    squeeze-and-excite block of those arguments: the same function of the same arrays. -/
theorem algebraic : Cert.algebraic_KernelIdeal_ReferenceIdeal := by
  intro m ρ m' ρ' _ hagree
  refine ⟨fun c => Cert.SE.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Bridge.run m ρ, ?_⟩
  refine (θ_run Cert.ReferenceIdeal.defs _ _).mono (fun r h c => ⟨?_, (h c).2⟩)
    (Cert.ReferenceIdeal.Bridge.run m' ρ')
  rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
